-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x2048 : Shape := ⟨2, ![32768, 2048]⟩
abbrev S2048x2 : Shape := ⟨2, ![2048, 2]⟩
abbrev S2048x1 : Shape := ⟨2, ![2048, 1]⟩
abbrev S_ : Shape := ⟨0, ![]⟩

class Facts : Prop where
  bcast_S_S32768x2048 : S_.BroadcastsInDim S32768x2048 (![] : Fin 0 → Fin S32768x2048.rank)
  reducesTo_S32768x2048_S_d0_1 : S32768x2048.ReducesTo [0, 1] S_
  h_S_ : 0 < S_.numel
  bcast_S_S2048x2 : S_.BroadcastsInDim S2048x2 (![] : Fin 0 → Fin S2048x2.rank)
  reducesTo_S2048x2_S_d0_1 : S2048x2.ReducesTo [0, 1] S_
  bcast_S_S2048x1 : S_.BroadcastsInDim S2048x1 (![] : Fin 0 → Fin S2048x1.rank)
  reducesTo_S2048x1_S_d0_1 : S2048x1.ReducesTo [0, 1] S_

variable [Facts]

def fn {F : FTy → Type} [FloatOps F] (main_arg0 : FVec F S32768x2048 .f32) (main_arg1 : FVec F S2048x2 .f32) (main_arg2 : FVec F S2048x1 .f32) : IVec S_ 1 :=
  let main_v0 : FVec F S32768x2048 .f32 := Host.absf main_arg0
  let main_cst : FVec F S_ .f32 := constant S_ .f32 0x7F800000#32
  let main_v1 : FVec F S32768x2048 .f32 := broadcastInDim S32768x2048 ![] bcast_S_S32768x2048 main_cst
  let main_v2 : IVec S32768x2048 1 := cmpf .olt main_v0 main_v1
  let main_c : IVec S_ 1 := constantI S_ 1 1#1
  let main_v3 : IVec S_ 1 := (fun x v => Host.reduce IntOp.andi x v reducesTo_S32768x2048_S_d0_1 h_S_) main_v2 main_c
  let main_v4 : FVec F S2048x2 .f32 := Host.absf main_arg1
  let main_cst_0 : FVec F S_ .f32 := constant S_ .f32 0x7F800000#32
  let main_v5 : FVec F S2048x2 .f32 := broadcastInDim S2048x2 ![] bcast_S_S2048x2 main_cst_0
  let main_v6 : IVec S2048x2 1 := cmpf .olt main_v4 main_v5
  let main_c_1 : IVec S_ 1 := constantI S_ 1 1#1
  let main_v7 : IVec S_ 1 := (fun x v => Host.reduce IntOp.andi x v reducesTo_S2048x2_S_d0_1 h_S_) main_v6 main_c_1
  let main_v8 : IVec S_ 1 := andi main_v3 main_v7
  let main_v9 : FVec F S2048x1 .f32 := Host.absf main_arg2
  let main_cst_2 : FVec F S_ .f32 := constant S_ .f32 0x7F800000#32
  let main_v10 : FVec F S2048x1 .f32 := broadcastInDim S2048x1 ![] bcast_S_S2048x1 main_cst_2
  let main_v11 : IVec S2048x1 1 := cmpf .olt main_v9 main_v10
  let main_c_3 : IVec S_ 1 := constantI S_ 1 1#1
  let main_v12 : IVec S_ 1 := (fun x v => Host.reduce IntOp.andi x v reducesTo_S2048x1_S_d0_1 h_S_) main_v11 main_c_3
  let main_v13 : IVec S_ 1 := andi main_v8 main_v12
  main_v13
-- ==== Kernel.lean ====
abbrev S32768x2048 : Shape := ⟨2, ![32768, 2048]⟩
abbrev S2048x2 : Shape := ⟨2, ![2048, 2]⟩
abbrev S2048x1 : Shape := ⟨2, ![2048, 1]⟩
abbrev S2048 : Shape := ⟨1, ![2048]⟩
abbrev S1x2048 : Shape := ⟨2, ![1, 2048]⟩
abbrev S32768x2 : Shape := ⟨2, ![32768, 2]⟩
abbrev S1024x2048 : Shape := ⟨2, ![1024, 2048]⟩
abbrev S1024x2 : Shape := ⟨2, ![1024, 2]⟩

abbrev nBuf : Space → Nat
  | .hbm => 6
  | .vmem => 6
  | .smem => 0
  | _ => 0

abbrev bufTy : (tb : Table) → Fin (tcTables nBuf tb) → BufTy
  | .hbm, ⟨0, _⟩ => ⟨S32768x2048, .f32⟩
  | .hbm, ⟨1, _⟩ => ⟨S2048x2, .f32⟩
  | .hbm, ⟨2, _⟩ => ⟨S2048x1, .f32⟩
  | .hbm, ⟨3, _⟩ => ⟨S2048, .f32⟩
  | .hbm, ⟨4, _⟩ => ⟨S1x2048, .f32⟩
  | .hbm, ⟨5, _⟩ => ⟨S32768x2, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x2, .f32⟩
  | .local _ .vmem, ⟨4, _⟩ => ⟨S1024x2, .f32⟩
  | .local _ .vmem, ⟨5, _⟩ => ⟨S1024x2, .f32⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x2 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x2 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S2048x1_S2048 : S2048x1.ShapeCasts S2048
  bcast_S2048_S1x2048_1 : S2048.BroadcastsInDim S1x2048 (![1] : Fin 1 → Fin S1x2048.rank)
  inb_S1024x2048_S1024x2048_0_0 : ∀ a, (![0, 0] : Fin 2 → Nat) a + S1024x2048.size a ≤ S1024x2048.size a
  h_S1024x2048 : 0 < S1024x2048.numel
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S1024x2048 : S1x2048.Broadcasts S1024x2048
  bitsLt_bf16_f32 : FTy.bits .bf16 < FTy.bits .f32
  inb_S2048x2_S2048x2_0_0 : ∀ a, (![0, 0] : Fin 2 → Nat) a + S2048x2.size a ≤ S2048x2.size a
  h_S2048x2 : 0 < S2048x2.numel
  inb_S1024x2_S1024x2_0_0 : ∀ a, (![0, 0] : Fin 2 → Nat) a + S1024x2.size a ≤ S1024x2.size a
  h_S1024x2 : 0 < S1024x2.numel
  dot_S1024x2048_S2048x2_S1024x2_1_0_0_1_n_n_wf : DotDims.WF S1024x2048 S2048x2 S1024x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S32768x2048.size a
  hwx0_0 : ∀ i : grid0.Coords, EltTy.bits .f32 = 32 ∨ (Rect.block (s := S32768x2048) S1024x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x2048.size a ≤ S1x2048.size a
  hwx0_1 : ∀ i : grid0.Coords, EltTy.bits .f32 = 32 ∨ (Rect.block (s := S1x2048) S1x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2048x2.size a ≤ S2048x2.size a
  hwx0_2 : ∀ i : grid0.Coords, EltTy.bits .f32 = 32 ∨ (Rect.block (s := S2048x2) S2048x2.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x2.size a ≤ S32768x2.size a
  hwx0_3 : ∀ i : grid0.Coords, EltTy.bits .f32 = 32 ∨ (Rect.block (s := S32768x2) S1024x2.size (cc0_transform_3 i) (hinb0_3 i)).WholeWords (EltTy.packing .f32)

variable [Facts₀]

def dot_S1024x2048_S2048x2_S1024x2_1_0_0_1_n_n : DotDims S1024x2048 S2048x2 S1024x2 where
  lhsContracting := [1]
  rhsContracting := [0]
  lhsNonContracting := [0]
  rhsNonContracting := [1]
  lhsBatch := []
  rhsBatch := []
  wf := dot_S1024x2048_S2048x2_S1024x2_1_0_0_1_n_n_wf

abbrev win0_0 : Pipeline.Window sig grid0 :=
  Pipeline.Window.ofSpec (Memref.whole main_arg0) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S2048x2.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1024x2.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32768x2048 : Shape := ⟨2, ![32768, 2048]⟩
abbrev S2048x2 : Shape := ⟨2, ![2048, 2]⟩
abbrev S2048x1 : Shape := ⟨2, ![2048, 1]⟩
abbrev S2048 : Shape := ⟨1, ![2048]⟩
abbrev S1x2048 : Shape := ⟨2, ![1, 2048]⟩
abbrev S32768x2 : Shape := ⟨2, ![32768, 2]⟩

abbrev nBuf : Space → Nat
  | .hbm => 9
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S2048x2, .f32⟩
  | .hbm, ⟨2, _⟩ => ⟨S2048x1, .f32⟩
  | .hbm, ⟨3, _⟩ => ⟨S2048, .f32⟩
  | .hbm, ⟨4, _⟩ => ⟨S1x2048, .f32⟩
  | .hbm, ⟨5, _⟩ => ⟨S32768x2048, .f32⟩
  | .hbm, ⟨6, _⟩ => ⟨S32768x2048, .f32⟩
  | .hbm, ⟨7, _⟩ => ⟨S32768x2048, .f32⟩
  | .hbm, ⟨8, _⟩ => ⟨S32768x2, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]

class Facts₀ : Prop where
  shapeCasts_S2048x1_S2048 : S2048x1.ShapeCasts S2048
  bcast_S2048_S1x2048_1 : S2048.BroadcastsInDim S1x2048 (![1] : Fin 1 → Fin S1x2048.rank)
  bcast_S1x2048_S32768x2048_0_1 : S1x2048.BroadcastsInDim S32768x2048 (![0, 1] : Fin 2 → Fin S32768x2048.rank)
  dot_S32768x2048_S2048x2_S32768x2_1_0_0_1_n_n_wf : DotDims.WF S32768x2048 S2048x2 S32768x2 [1] [0] [0] [1] [] []

variable [Facts₀]

def dot_S32768x2048_S2048x2_S32768x2_1_0_0_1_n_n : DotDims S32768x2048 S2048x2 S32768x2 where
  lhsContracting := [1]
  rhsContracting := [0]
  lhsNonContracting := [0]
  rhsNonContracting := [1]
  lhsBatch := []
  rhsBatch := []
  wf := dot_S32768x2048_S2048x2_S32768x2_1_0_0_1_n_n_wf

class Facts : Prop extends Facts₀ where

variable [Facts]
-- ==== Proof.Spec.lean ====
/-
  The embedding as one function of its three argument arrays, over the extended reals.

  For an input matrix `x` (32768 rows of 2048 features), a phase column `p` (one phase per feature) and a weight
  matrix `w` (2048 features by 2 components), the entry of the result at row `b` and component `e` is

      ∑ k, cos (x (b, k) * p (k, 0)) * w (k, e)

  the sum over the 2048 features. Both programs compute it: one row block at a time with the phases laid out as a
  row, or all rows at once with the phases broadcast over the rows; the order of the sum plays no role on the
  extended reals, and a change of float format is the identity there.

  Also here: the phase column re-laid as a row — cast to a vector of 2048 entries, then broadcast along a new
  leading axis of extent one — read at column `k` is the column's entry `k`.
-/
import Idealize.ShloMosaic.Lib.ValueIdx
import Idealize.ShloMosaic.Lib.Pipeline.Value
import Idealize.ShloMosaic.PureOps.Ideal.Laws

open Idealize.ShloMosaic Idealize.ShloMosaic.ValueIdx
open scoped BigOperators

noncomputable section

namespace Cert.CosEmbedding

/-- The entry at row `b`, component `e`: the sum over the features `k` of `cos (x (b, k) * p (k, 0)) * w (k, e)`. -/
def entry (x : FVec Ideal ⟨2, ![32768, 2048]⟩ .f32) (w : FVec Ideal ⟨2, ![2048, 2]⟩ .f32)
    (p : FVec Ideal ⟨2, ![2048, 1]⟩ .f32) (b : Fin 32768) (e : Fin 2) : EReal :=
  ∑ k : Fin 2048, Ideal.cos (x (ix2 b k) * p (ix2 k 0)) * w (ix2 k e)

/-- The whole result array: `entry` at each index's two coordinates. -/
def embed (x : FVec Ideal ⟨2, ![32768, 2048]⟩ .f32) (w : FVec Ideal ⟨2, ![2048, 2]⟩ .f32)
    (p : FVec Ideal ⟨2, ![2048, 1]⟩ .f32) : FVec Ideal ⟨2, ![32768, 2]⟩ .f32 :=
  fun i => entry x w p (i 0) (i 1)

theorem embed_apply (x : FVec Ideal ⟨2, ![32768, 2048]⟩ .f32) (w : FVec Ideal ⟨2, ![2048, 2]⟩ .f32)
    (p : FVec Ideal ⟨2, ![2048, 1]⟩ .f32) (b : Fin 32768) (e : Fin 2) :
    embed x w p (ix2 b e) = entry x w p b e := rfl

/-- The phase column as a row: the [2048, 1] array cast to [2048] and broadcast to [1, 2048] along axis 1, read at
    column `k` of its one row, is the column's entry `k`. -/
theorem phaseRow_apply {α : Type} (p : (⟨2, ![2048, 1]⟩ : Shape).Idx → α)
    (hc : (⟨2, ![2048, 1]⟩ : Shape).ShapeCasts ⟨1, ![2048]⟩)
    (hb : (⟨1, ![2048]⟩ : Shape).BroadcastsInDim ⟨2, ![1, 2048]⟩ (![1] : Fin 1 → Fin 2))
    (z : Fin 1) (k : Fin 2048) :
    broadcastInDim ⟨2, ![1, 2048]⟩ ![1] hb (shapeCast ⟨1, ![2048]⟩ p hc) (ix2 z k) = p (ix2 k 0) := by
  rw [broadcastInDim_apply _ hb _ (ix2 z k) (ix1 k) (fun a => match a with
    | ⟨0, _⟩ => by show k.val = if (2048 : Nat) = 1 then 0 else k.val; rw [if_neg (by decide)])]
  exact shapeCast_apply p hc (ix1 k) (ix2 k 0)
    (by rewrite [Shape.rowMajor_val_two, Shape.rowMajor_val_one]; show k.val * 1 + 0 = k.val; omega)

end Cert.CosEmbedding

end
-- ==== Proof.Blocks.lean ====
/-
  The three input blocks of a grid point, as parts of the argument arrays.

  The grid has 32 points; point `t` stages rows `1024 t … 1024 t + 1023` of `x` (all 2048 columns), the whole phase
  row and the whole weight matrix, and writes back rows `1024 t … 1024 t + 1023` of the result. The phase row is
  made before the kernel starts, by casting the phase column to a vector and broadcasting that to one row, so its
  column `k` is the phase column's entry `k`; `x` and the weights reach the kernel as they were given.
-/
import proofs.«103120_j50964081935097_1_alg».proof.Proof.Gen.KernelIdeal.Frame
import proofs.«103120_j50964081935097_1_alg».proof.Proof.Spec
import Idealize.ShloMosaic.Lib.Pipeline.Value
import Idealize.ShloMosaic.Lib.StableHlo.Run
import Idealize.ShloMosaic.Lib.Tactic

open Idealize.ShloMosaic Idealize.ShloMosaic.TcCoe Idealize.SL.Sem Idealize.ShloMosaic.ValueIdx
open Idealize.ShloMosaic.Pipeline (Dat)

noncomputable section

namespace Cert.KernelIdeal.Whole

open Cert.KernelIdeal Cert.KernelIdeal.Gen Cert.CosEmbedding

variable (m : (ℓ : Loc nD τ sig) → Buf (Elt Ideal) ℓ)

/-- The block indices at every grid point, decided over the 32 points: `x` and the result move down one row block
    per point, the phase row and the weights stay. -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The phase row as the kernel finds it: the phase column cast to a vector and broadcast to one row. -/
theorem phase_row (c : Dev nD) :
    (V m c main_v1 : S1x2048.Idx → EReal)
      = broadcastInDim S1x2048 ![1] bcast_S2048_S1x2048_1
          (shapeCast S2048 (m ((c : Thread nD τ).loc main_arg2)) shapeCasts_S2048x1_S2048) := by
  dsimp only [Gen.V, Gen.hostOps0]
  after_results
  rfl

/-- Row `r` of point `t`'s block of `x` is row `1024 t + r` of `x`. -/
theorem rows_block (c : Dev nD) (t : Fin cfg0.N) (r : Fin 1024) (k : Fin 2048) (b : Fin 32768)
    (hb : b.val = t.val * 1024 + r.val) :
    (iblk m c 0 t : Vec Ideal S1024x2048 .f32) (ix2 r k)
      = (m ((c : Thread nD τ).loc main_arg0) : S32768x2048.Idx → EReal) (ix2 b k) := by
  obtain ⟨e0, e1, -⟩ := index_facts t
  unfold iblk
  rw [View.read_apply]
  show V m c main_arg0 _ = _
  refine (congrFun (V_main_arg0 m c) _).trans (congrArg _ (funext fun a => Fin.ext ?_))
  match a with
  | ⟨0, _⟩ => show win0_0.index t (0 : Fin 2) * 1024 + 1 * r.val = b.val; rw [e0, hb]; omega
  | ⟨1, _⟩ => show win0_0.index t (1 : Fin 2) * 2048 + 1 * k.val = k.val; rw [e1]; omega

/-- Column `k` of the staged phase row is entry `k` of the phase column, at every point. -/
theorem phase_block (c : Dev nD) (t : Fin cfg0.N) (k : Fin 2048) :
    (iblk m c 1 t : Vec Ideal S1x2048 .f32) (ix2 0 k)
      = (m ((c : Thread nD τ).loc main_arg2) : S2048x1.Idx → EReal) (ix2 k 0) := by
  obtain ⟨-, -, e2, e3, -⟩ := index_facts t
  unfold iblk
  rw [View.read_apply]
  show V m c main_v1 _ = _
  refine (congrFun (phase_row m c) _).trans ?_
  refine Eq.trans (congrArg _ (funext fun a => Fin.ext ?_)) (phaseRow_apply _ shapeCasts_S2048x1_S2048 bcast_S2048_S1x2048_1 0 k)
  match a with
  | ⟨0, _⟩ => show win0_1.index t (0 : Fin 2) * 1 + 1 * 0 = 0; rw [e2]
  | ⟨1, _⟩ => show win0_1.index t (1 : Fin 2) * 2048 + 1 * k.val = k.val; rw [e3]; omega

/-- The staged weight block is the whole weight matrix, at every point. -/
theorem weight_block (c : Dev nD) (t : Fin cfg0.N) (k : Fin 2048) (e : Fin 2) :
    (iblk m c 2 t : Vec Ideal S2048x2 .f32) (ix2 k e)
      = (m ((c : Thread nD τ).loc main_arg1) : S2048x2.Idx → EReal) (ix2 k e) := by
  obtain ⟨-, -, -, -, e4, e5, -⟩ := index_facts t
  unfold iblk
  rw [View.read_apply]
  show V m c main_arg1 _ = _
  refine (congrFun (V_main_arg1 m c) _).trans (congrArg _ (funext fun a => Fin.ext ?_))
  match a with
  | ⟨0, _⟩ => show win0_2.index t (0 : Fin 2) * 2048 + 1 * k.val = k.val; rw [e4]; omega
  | ⟨1, _⟩ => show win0_2.index t (1 : Fin 2) * 2 + 1 * e.val = e.val; rw [e5]; omega

end Cert.KernelIdeal.Whole

end
-- ==== Proof.LibPlainDot.lean ====
/-
  The plain matrix product read at an entry, over the extended reals.

  For the dimension numbers of an ordinary product of an `M × K` matrix by a `K × N` matrix
  (`DotDims.plain M K N`: no batch axis, the left operand contracted on its columns, the right one on its rows),
  at the ideal values:

  * a `tpu.matmul` into the zero accumulator, at entry `(p, q)`, is `∑ k, lhs (p, k) * rhs (k, q)`
    (`matmul_zero_plain`);
  * the host's `dot_general`, at entry `(p, q)`, is the same sum, whatever its schedule key (`dotGeneral_plain`).

  Both are generic in the three extents and in the operands' float formats (a change of format is the identity
  at the ideal values). The contraction index of these dimension numbers has one axis, of extent `K`; the sum over
  it is re-indexed to a sum over `Fin K` through `ValueIdx.contrEquiv1`, and the operand indices at output index
  `(p, q)` and contraction coordinate `k` are `(p, k)` and `(k, q)`, coordinate by coordinate.
-/
import Idealize.ShloMosaic.Lib.ValueIdx
import Idealize.ShloMosaic.PureOps.Ideal.Laws

open Idealize.ShloMosaic Idealize.ShloMosaic.ValueIdx
open scoped BigOperators

noncomputable section

namespace Cert.LibPlainDot

variable {M K N : Nat}

/-- The left operand's index at output `(p, q)` and contraction coordinate `k` is `(p, k)`. -/
theorem lhsIdx_plain (p : Fin M) (q : Fin N) (k : Fin K) :
    (DotDims.plain M K N).lhsIdx (ix2 p q) ((contrEquiv1 (DotDims.plain M K N) K rfl rfl).symm k) = ix2 p k :=
  funext fun a => Fin.ext (by
    match a with
    | ⟨0, _⟩ => rfl
    | ⟨1, _⟩ => exact contrEquiv1_symm_val (DotDims.plain M K N) K rfl rfl k)

/-- The right operand's index at output `(p, q)` and contraction coordinate `k` is `(k, q)`. -/
theorem rhsIdx_plain (p : Fin M) (q : Fin N) (k : Fin K) :
    (DotDims.plain M K N).rhsIdx (ix2 p q) ((contrEquiv1 (DotDims.plain M K N) K rfl rfl).symm k) = ix2 k q :=
  funext fun a => Fin.ext (by
    match a with
    | ⟨0, _⟩ => exact contrEquiv1_symm_val (DotDims.plain M K N) K rfl rfl k
    | ⟨1, _⟩ => rfl)

/-- A `tpu.matmul` of an `M × K` by a `K × N` operand into the zero accumulator, at entry `(p, q)`: the sum over
    `k` of `lhs (p, k) * rhs (k, q)`. -/
theorem matmul_zero_plain {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply, ← Equiv.sum_comp (contrEquiv1 (DotDims.plain M K N) K rfl rfl).symm]
  refine Finset.sum_congr rfl fun k _ => ?_
  rw [lhsIdx_plain, rhsIdx_plain]

/-- The host's `dot_general` of an `M × K` by a `K × N` operand, at entry `(p, q)`: the same sum. -/
theorem dotGeneral_plain {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) := by
  rw [Ideal.dotGeneral_apply, ← Equiv.sum_comp (contrEquiv1 (DotDims.plain M K N) K rfl rfl).symm]
  refine Finset.sum_congr rfl fun k _ => ?_
  rw [lhsIdx_plain, rhsIdx_plain]

end Cert.LibPlainDot

end
-- ==== Proof.Payload.lean ====
/-
  What the kernel body stores, read at an entry.

  At a grid point the body holds a block of 1024 rows of `x`, the phase row and the weight matrix. It multiplies
  each row by the phase row, takes the cosine, and multiplies the result by the weight matrix into a zero
  accumulator (both operands pass through a narrower float format first, which changes nothing on the extended
  reals). So the stored block's entry at row `r` and component `e` is the sum over the features `k` of
  `cos (x (r, k) * phase (0, k)) * w (k, e)`.
-/
import proofs.«103120_j50964081935097_1_alg».proof.Proof.Gen.KernelIdeal.Skeleton
import proofs.«103120_j50964081935097_1_alg».proof.Proof.LibPlainDot
import proofs.«103120_j50964081935097_1_alg».proof.Proof.Spec
import Idealize.ShloMosaic.Lib.ValueIdx
import Idealize.ShloMosaic.Lib.Pipeline.Value
import Idealize.ShloMosaic.PureOps.Ideal.Laws

open Idealize.ShloMosaic Idealize.ShloMosaic.ValueIdx
open scoped BigOperators

noncomputable section

namespace Cert.KernelIdeal.Whole

open Cert.KernelIdeal Cert.KernelIdeal.Gen Cert.CosEmbedding

/-- The body's product has the dimension numbers of an ordinary matrix product, 1024 × 2048 by 2048 × 2. -/
theorem dims_plain :
    dot_S1024x2048_S2048x2_S1024x2_1_0_0_1_n_n = DotDims.plain 1024 2048 2 := rfl

/-- The stored block at row `r`, component `e`. -/
theorem payload_apply (x0 : Vec Ideal S1024x2048 .f32) (x1 : Vec Ideal S1x2048 .f32) (x7 : Vec Ideal S2048x2 .f32)
    (r : Fin 1024) (e : Fin 2) :
    k0_pay1 (F := Ideal) x0 x1 x7 (ix2 r e)
      = ∑ k : Fin 2048, Ideal.cos (x0 (ix2 r k) * x1 (ix2 0 k)) * x7 (ix2 k e) := by
  unfold k0_pay1
  rw [dims_plain]
  refine (Cert.LibPlainDot.matmul_zero_plain none _ _ r e).trans ?_
  refine Finset.sum_congr rfl fun k _ => ?_
  show Ideal.cos (x0 (ix2 r k) * broadcastTo S1024x2048 (shapeCast S1x2048 x1 shapeCasts_S1x2048_S1x2048) broadcasts_S1x2048_S1024x2048 (ix2 r k)) * x7 (ix2 k e) = _
  rw [shapeCast_self, broadcastTo_apply x1 broadcasts_S1x2048_S1024x2048 (ix2 r k) (ix2 0 k) (fun a => match a with
    | ⟨0, _⟩ => by show (0 : Nat) = if (1 : Nat) = 1 then 0 else _; rw [if_pos rfl]
    | ⟨1, _⟩ => by show k.val = if (2048 : Nat) = 1 then 0 else k.val; rw [if_neg (by decide)])]

/-- A stored block's entry is the embedding's entry, once the body's three blocks are known to be what they are of the
    whole arrays: the block of `x` its rows `T * 1024 …`, the phase row the phase column, the weight block the
    whole weight matrix; `i` is the index of the result array that block entry `y` of point `T` lands on. -/
theorem block_entry (x0 : Vec Ideal S1024x2048 .f32) (x1 : Vec Ideal S1x2048 .f32) (x2 : Vec Ideal S2048x2 .f32)
    (X : FVec Ideal S32768x2048 .f32) (W : FVec Ideal S2048x2 .f32) (P : FVec Ideal S2048x1 .f32)
    (T : Nat) (y : S1024x2.Idx) (i : S32768x2.Idx)
    (hi0 : (i 0).val = T * 1024 + (y 0).val) (hi1 : (i 1).val = (y 1).val)
    (h0 : ∀ (r : Fin 1024) (k : Fin 2048) (b : Fin 32768), b.val = T * 1024 + r.val → x0 (ix2 r k) = X (ix2 b k))
    (h1 : ∀ k : Fin 2048, x1 (ix2 0 k) = P (ix2 k 0))
    (h2 : ∀ (k : Fin 2048) (e : Fin 2), x2 (ix2 k e) = W (ix2 k e)) :
    k0_pay1 (F := Ideal) x0 x1 x2 y = embed X W P i := by
  obtain ⟨r, e, rfl⟩ : ∃ (r : Fin 1024) (e : Fin 2), y = ix2 r e := ⟨y 0, y 1, eq_ix2 y⟩
  obtain ⟨b, e', rfl⟩ : ∃ (b : Fin 32768) (e' : Fin 2), i = ix2 b e' := ⟨i 0, i 1, eq_ix2 i⟩
  have he : e' = e := Fin.ext hi1
  subst he
  rw [payload_apply, embed_apply]
  unfold entry
  refine Finset.sum_congr rfl fun k _ => ?_
  rw [h0 r k b hi0, h1 k, h2 k e']

end Cert.KernelIdeal.Whole

end
-- ==== Proof.KernelValue.lean ====
/-
  The kernel's result array is the embedding.

  Point `t` writes back rows `1024 t … 1024 t + 1023` of the result, and what it writes at row `r`, component `e` of
  its block is the embedding's entry at row `1024 t + r`, component `e`: the body's sum over the features, with the
  point's block of `x` read as rows of `x`, the phase row as the phase column and the weight block as the weight
  matrix. The 32 row blocks tile the result (row `b` lies in the block of point `b / 1024`), so after the run the
  result array is the embedding of the three arguments, and the arguments are as they were.
-/
import proofs.«103120_j50964081935097_1_alg».proof.Proof.Gen.KernelIdeal.Value
import proofs.«103120_j50964081935097_1_alg».proof.Proof.Blocks
import proofs.«103120_j50964081935097_1_alg».proof.Proof.Payload

open Idealize.ShloMosaic Idealize.ShloMosaic.TcCoe Idealize.SL.Sem Idealize.ShloMosaic.ValueIdx
open Idealize.ShloMosaic.Pipeline (Dat)

noncomputable section

namespace Cert.KernelIdeal.Whole

open Cert.KernelIdeal Cert.KernelIdeal.Gen Cert.CosEmbedding

variable (m : (ℓ : Loc nD τ sig) → Buf (Elt Ideal) ℓ) (ρ : Dev nD → PrngReg)

theorem zero_offsets : (![0, 0] : Fin 2 → Nat) = fun _ => 0 := funext fun a => by fin_cases a <;> rfl

/-- The embedding of the three argument arrays as launched, as contents of the result buffer. -/
abbrev result (c : Dev nD) : Buf (Elt Ideal) ((c : Thread nD τ).loc main_v2) :=
  embed (m ((c : Thread nD τ).loc main_arg0)) (m ((c : Thread nD τ).loc main_arg1)) (m ((c : Thread nD τ).loc main_arg2))

/-- What point `t` writes back is block `t` of the embedding. -/
theorem flushed_eq (c : Dev nD) (t : Fin cfg0.N) :
    (dats m 0 c).flushed 3 t = ((cfg0.win 3).blk t).view.read (Elt Ideal) (result m c) := by
  obtain ⟨-, -, -, -, -, -, e6, e7⟩ := index_facts t
  rw [Cert.KernelIdeal.Value.flushed3]
  unfold out0_3
  rw [View.canon_unit_zero zero_offsets]
  simp only [View.ld_unit_zero (S := S1024x2048) zero_offsets, View.ld_unit_zero (S := S1x2048) zero_offsets,
    View.ld_unit_zero (S := S2048x2) zero_offsets]
  funext j
  show k0_pay1 (F := Ideal) (iblk m c 0 t) (iblk m c 1 t) (iblk m c 2 t) j
    = embed (m ((c : Thread nD τ).loc main_arg0)) (m ((c : Thread nD τ).loc main_arg1)) (m ((c : Thread nD τ).loc main_arg2))
        (((cfg0.win 3).blk t).view.emb j)
  refine block_entry (iblk m c 0 t) (iblk m c 1 t) (iblk m c 2 t)
    (m ((c : Thread nD τ).loc main_arg0)) (m ((c : Thread nD τ).loc main_arg1)) (m ((c : Thread nD τ).loc main_arg2))
    t.val j (((cfg0.win 3).blk t).view.emb j) ?_ ?_ (fun r k b hb => rows_block m c t r k b hb)
    (fun k => phase_block m c t k) (fun k e => weight_block m c t k e)
  · show win0_3.index t (0 : Fin 2) * 1024 + 1 * (j 0).val = t.val * 1024 + (j 0).val
    rw [e6]; omega
  · show win0_3.index t (1 : Fin 2) * 2 + 1 * (j 1).val = (j 1).val
    rw [e7]; omega

/-- An index of the result array is in point `t`'s block iff each coordinate is in the block's range on its axis. -/
theorem mem_block (t : Fin cfg0.N) (i : S32768x2.Idx) :
    i ∈ ((cfg0.win 3).blk t).view.set ↔ ∀ a : Fin 2, win0_3.index t a * S1024x2.size a ≤ (i a).val ∧ (i a).val < win0_3.index t a * S1024x2.size a + S1024x2.size a := by
  show i ∈ ((View.whole main_v2).slice (win0_3.rect t)).set ↔ _
  rw [View.set_slice_whole, Rect.mem_set_unit]
  exact Iff.rfl

/-- The row blocks tile the result: row `b` is in the block of point `b / 1024`. -/
theorem covered (i : S32768x2.Idx) :
    ∃ t : Fin cfg0.N, (cfg0.win 3).flush t = true ∧ i ∈ ((cfg0.win 3).blk t).view.set := by
  have hi0 : (i 0).val < 32768 := (i 0).isLt
  have hi1 : (i 1).val < 2 := (i 1).isLt
  have hN : cfg0.N = 32 := N_0
  have ht : (i 0).val / 1024 < cfg0.N := by rw [hN]; omega
  obtain ⟨-, -, -, -, -, -, e6, e7⟩ := index_facts ⟨(i 0).val / 1024, ht⟩
  refine ⟨⟨(i 0).val / 1024, ht⟩, flush0_3 _, ?_⟩
  rw [mem_block]
  intro a
  match a with
  | ⟨0, _⟩ =>
    show win0_3.index ⟨(i 0).val / 1024, ht⟩ (0 : Fin 2) * 1024 ≤ (i 0).val ∧ (i 0).val < win0_3.index ⟨(i 0).val / 1024, ht⟩ (0 : Fin 2) * 1024 + 1024
    rw [e6]; show (i 0).val / 1024 * 1024 ≤ (i 0).val ∧ (i 0).val < (i 0).val / 1024 * 1024 + 1024; omega
  | ⟨1, _⟩ =>
    show win0_3.index ⟨(i 0).val / 1024, ht⟩ (1 : Fin 2) * 2 ≤ (i 1).val ∧ (i 1).val < win0_3.index ⟨(i 0).val / 1024, ht⟩ (1 : Fin 2) * 2 + 2
    rw [e7]; omega

/-- After the run the result array is the embedding. -/
theorem final (c : Dev nD) : (dats m 0 c).arrAt 3 cfg0.N = result m c :=
  (dats m 0 c).arrAt_eq_of_cover 3 (result m c) (fun t _ => flushed_eq m c t) covered

/-- The kernel's run: every weakly fair execution ends with the result array at the embedding of the arguments, and
    the arguments unchanged. -/
theorem run : θ_run defs (onTc (τ := τ) (main (F := Ideal))) ⟨m, fun _ => 0, ρ⟩ fun r => ∀ c : Dev nD,
      r.2.mem ((c : Thread nD τ).loc main_v2) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩)
    (Cert.KernelIdeal.Value.run_blocks m ρ)

end Cert.KernelIdeal.Whole

end
-- ==== Proof.RefSide.lean ====
/-
  The reference computes the embedding.

  The reference multiplies every row of `x` by the phase row (the phase column cast to a vector, broadcast to one
  row, broadcast over all 32768 rows), takes the cosine entry by entry, and contracts the features against the
  weight matrix in one product. Read at an index (b, e), one operation at a time, that is the sum over the features
  `k` of `cos (x (b, k) * p (k, 0)) * w (k, e)`: the entry of `CosEmbedding.embed`. The host's cosine and the
  kernel's are one function on the extended reals.
-/
import proofs.«103120_j50964081935097_1_alg».proof.Proof.Gen.ReferenceIdeal.Read
import proofs.«103120_j50964081935097_1_alg».proof.Proof.Spec

open Idealize.ShloMosaic Idealize.ShloMosaic.ValueIdx
open scoped BigOperators

noncomputable section

namespace Cert.ReferenceIdeal.Whole

open Cert.ReferenceIdeal Cert.ReferenceIdeal.Read Cert.CosEmbedding

/-- The reference's result, as a function of its three arguments, is the embedding. -/
theorem reference_eq (x0 : (⟨S32768x2048, .f32⟩ : BufTy).Contents (Elt Ideal)) (x1 : (⟨S2048x2, .f32⟩ : BufTy).Contents (Elt Ideal))
    (x2 : (⟨S2048x1, .f32⟩ : BufTy).Contents (Elt Ideal)) :
    val_main_v5 (F := Ideal) x0 x1 x2 = embed x0 x1 x2 := by
  funext i
  obtain ⟨b, e, rfl⟩ : ∃ (b : Fin 32768) (e : Fin 2), i = ix2 b e := ⟨i 0, i 1, eq_ix2 i⟩
  rw [val_main_v5_apply, embed_apply]
  unfold entry
  refine Finset.sum_congr rfl fun k _ => ?_
  rw [val_main_v4_apply, val_main_v3_apply, val_main_v2_apply, val_main_v1_apply, val_main_v0_apply]
  have e0 : lidx_main_v5 (ix2 b e) k = ix2 b k :=
    funext fun a => Fin.ext (by match a with | ⟨0, _⟩ => rfl | ⟨1, _⟩ => rfl)
  have e1 : ridx_main_v5 (ix2 b e) k = ix2 k e :=
    funext fun a => Fin.ext (by match a with | ⟨0, _⟩ => rfl | ⟨1, _⟩ => rfl)
  have e2 : idx_main_v0 (idx_main_v1 (idx_main_v2 (ix2 b k))) = ix2 k 0 :=
    funext fun a => Fin.ext (by match a with | ⟨0, _⟩ => exact Nat.div_one _ | ⟨1, _⟩ => rfl)
  rw [e0, e1, e2]
  rfl

end Cert.ReferenceIdeal.Whole

end
-- ==== Proof.lean ====
/-
  The kernel computes, for an input matrix `x` (32768 × 2048), a phase column `p` (2048 × 1) and a weight matrix
  `w` (2048 × 2), the array whose entry at row `b`, component `e` is

      ∑ k, cos (x (b, k) * p (k, 0)) * w (k, e),

  one block of 1024 rows per grid point, the phases laid out as a row beforehand, the product taken into a zero
  accumulator after both operands pass through a narrower float format. The reference computes the same array in
  one piece: `x` times the phases broadcast over the rows, the cosine, one contraction over the features against
  `w`. On the extended reals a change of float format is the identity, a product into a zero accumulator and a
  contraction are the same finite sum, and the kernel's and the host's cosine are one function: both programs end
  with `CosEmbedding.embed x w p` (Proof/Spec.lean) in their result arrays.

  The pieces: Proof/Payload.lean (what the body stores, at an entry), Proof/Blocks.lean (each point's input blocks as
  parts of the arguments), Proof/KernelValue.lean (the row blocks tile the result; the kernel's run), Proof/RefSide.lean
  (the reference's operations read at an index). No property of the inputs beyond their being extended reals is
  used: the two sides are the same sum term by term.
-/
import proofs.«103120_j50964081935097_1_alg».proof.Defs
import proofs.«103120_j50964081935097_1_alg».proof.Proof.Gen.Kernel
import proofs.«103120_j50964081935097_1_alg».proof.Proof.Gen.Kernel.Skeleton
import proofs.«103120_j50964081935097_1_alg».proof.Proof.Gen.Kernel.Launch
import proofs.«103120_j50964081935097_1_alg».proof.Proof.Gen.Kernel.Points
import proofs.«103120_j50964081935097_1_alg».proof.Proof.Gen.Kernel.Frame
import proofs.«103120_j50964081935097_1_alg».proof.Proof.Gen.KernelIdeal
import proofs.«103120_j50964081935097_1_alg».proof.Proof.Gen.KernelIdeal.Skeleton
import proofs.«103120_j50964081935097_1_alg».proof.Proof.Gen.KernelIdeal.Launch
import proofs.«103120_j50964081935097_1_alg».proof.Proof.Gen.KernelIdeal.Points
import proofs.«103120_j50964081935097_1_alg».proof.Proof.Gen.KernelIdeal.Frame
import proofs.«103120_j50964081935097_1_alg».proof.Proof.Gen.ReferenceIdeal
import proofs.«103120_j50964081935097_1_alg».proof.Proof.Gen.KernelIdeal.Value
import proofs.«103120_j50964081935097_1_alg».proof.Proof.Gen.ReferenceIdeal.Run
import proofs.«103120_j50964081935097_1_alg».proof.Proof.Gen.ReferenceIdeal.Read
import proofs.«103120_j50964081935097_1_alg».proof.Proof.Gen.Pre_finite_inputs
import proofs.«103120_j50964081935097_1_alg».proof.Proof.KernelValue
import proofs.«103120_j50964081935097_1_alg».proof.Proof.RefSide
import Idealize.ShloMosaic.Adequacy
import Idealize.ShloMosaic.Init

noncomputable section

namespace Cert.Proof

open Idealize.ShloMosaic Idealize.ShloMosaic.TcCoe Idealize.SL.Sem

/-- The kernel as printed runs and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference is a straight line of host operations: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation of the kernel was rewritten when it was printed for the extended reals. -/
theorem preserves : Cert.preserves_Kernel_KernelIdeal := trivial

/-- From memories that agree on the three arguments, the kernel's result array and the reference's both end at the
    embedding of those arguments. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v5_eq, Cert.ReferenceIdeal.Whole.reference_eq,
    (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
